-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x4096 : Shape := ⟨2, ![1024, 4096]⟩
abbrev S4096x4096 : Shape := ⟨2, ![4096, 4096]⟩
abbrev S4096x1024 : Shape := ⟨2, ![4096, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S8192x1024 .f32) (main_arg1 : FVec F S1024x4096 .f32) (main_arg2 : FVec F S4096x4096 .f32) (main_arg3 : FVec F S4096x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Kernel.lean ====
abbrev S8192x1024 : Shape := ⟨2, ![8192, 1024]⟩
abbrev S1024x4096 : Shape := ⟨2, ![1024, 4096]⟩
abbrev S4096x4096 : Shape := ⟨2, ![4096, 4096]⟩
abbrev S4096x1024 : Shape := ⟨2, ![4096, 1024]⟩
abbrev S8192x4096 : Shape := ⟨2, ![8192, 4096]⟩
abbrev S512x1024 : Shape := ⟨2, ![512, 1024]⟩
abbrev S512x4096 : Shape := ⟨2, ![512, 4096]⟩
abbrev S128x4096 : Shape := ⟨2, ![128, 4096]⟩

abbrev nBuf : Space → Nat
  | .hbm => 10
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096x4096, .f32⟩
  | .hbm, ⟨3, _⟩ => ⟨S4096x1024, .f32⟩
  | .hbm, ⟨4, _⟩ => ⟨S1024x4096, .bf16⟩
  | .hbm, ⟨5, _⟩ => ⟨S4096x4096, .bf16⟩
  | .hbm, ⟨6, _⟩ => ⟨S4096x1024, .bf16⟩
  | .hbm, ⟨7, _⟩ => ⟨S8192x4096, .bf16⟩
  | .hbm, ⟨8, _⟩ => ⟨S8192x4096, .bf16⟩
  | .hbm, ⟨9, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x4096, .bf16⟩
  | .local _ .vmem, ⟨3, _⟩ => ⟨S512x4096, .bf16⟩
  | .local _ .vmem, ⟨4, _⟩ => ⟨S512x4096, .bf16⟩
  | .local _ .vmem, ⟨5, _⟩ => ⟨S128x4096, .bf16⟩
  | .local _ .vmem, ⟨6, _⟩ => ⟨S128x4096, .bf16⟩
  | .local _ .vmem, ⟨7, _⟩ => ⟨S4096x4096, .bf16⟩
  | .local _ .vmem, ⟨8, _⟩ => ⟨S128x4096, .bf16⟩
  | .local _ .vmem, ⟨9, _⟩ => ⟨S128x4096, .bf16⟩
  | .local _ .vmem, ⟨10, _⟩ => ⟨S512x4096, .bf16⟩
  | .local _ .vmem, ⟨11, _⟩ => ⟨S512x4096, .bf16⟩
  | .local _ .vmem, ⟨12, _⟩ => ⟨S4096x1024, .bf16⟩
  | .local _ .vmem, ⟨13, _⟩ => ⟨S512x1024, .f32⟩
  | .local _ .vmem, ⟨14, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  packedbf16_S512x4096_S512x4096_0_0 : (Rect.unit (s := S512x4096) ![0, 0] S512x4096.size inb_S512x4096_S512x4096_0_0).PackedRows (EltTy.packing .bf16)
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  packedbf16_S128x4096_S128x4096_0_0 : (Rect.unit (s := S128x4096) ![0, 0] S128x4096.size inb_S128x4096_S128x4096_0_0).PackedRows (EltTy.packing .bf16)
  shapeCasts_S512x4096_S512x4096 : S512x4096.ShapeCasts S512x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  dot_S512x1024_S1024x4096_S512x4096_1_0_0_1_n_n_wf : DotDims.WF S512x1024 S1024x4096 S512x4096 [1] [0] [0] [1] [] []
  dot_S128x4096_S4096x4096_S128x4096_1_0_0_1_n_n_wf : DotDims.WF S128x4096 S4096x4096 S128x4096 [1] [0] [0] [1] [] []
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S8192x4096.size a
  hwx0_2 : ∀ i : grid0.Coords, EltTy.bits .bf16 = 32 ∨ (Rect.block (s := S8192x4096) S512x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S8192x4096.size a
  hwx1_0 : ∀ i : grid1.Coords, EltTy.bits .bf16 = 32 ∨ (Rect.block (s := S8192x4096) S128x4096.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x4096.size a ≤ S4096x4096.size a
  hwx1_1 : ∀ i : grid1.Coords, EltTy.bits .bf16 = 32 ∨ (Rect.block (s := S4096x4096) S4096x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x4096.size a ≤ S8192x4096.size a
  hwx1_2 : ∀ i : grid1.Coords, EltTy.bits .bf16 = 32 ∨ (Rect.block (s := S8192x4096) S128x4096.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S8192x4096.size a
  hwx2_0 : ∀ i : grid2.Coords, EltTy.bits .bf16 = 32 ∨ (Rect.block (s := S8192x4096) S512x4096.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x1024.size a ≤ S4096x1024.size a
  hwx2_1 : ∀ i : grid2.Coords, EltTy.bits .bf16 = 32 ∨ (Rect.block (s := S4096x1024) S4096x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S8192x1024.size a
  hwx2_2 : ∀ i : grid2.Coords, EltTy.bits .f32 = 32 ∨ (Rect.block (s := S8192x1024) S512x1024.size (cc2_transform_2 i) (hinb2_2 i)).WholeWords (EltTy.packing .f32)

variable [Facts₀]

def dot_S512x1024_S1024x4096_S512x4096_1_0_0_1_n_n : DotDims S512x1024 S1024x4096 S512x4096 where
  lhsContracting := [1]
  rhsContracting := [0]
  lhsNonContracting := [0]
  rhsNonContracting := [1]
  lhsBatch := []
  rhsBatch := []
  wf := dot_S512x1024_S1024x4096_S512x4096_1_0_0_1_n_n_wf
def dot_S128x4096_S4096x4096_S128x4096_1_0_0_1_n_n : DotDims S128x4096 S4096x4096 S128x4096 where
  lhsContracting := [1]
  rhsContracting := [0]
  lhsNonContracting := [0]
  rhsNonContracting := [1]
  lhsBatch := []
  rhsBatch := []
  wf := dot_S128x4096_S4096x4096_S128x4096_1_0_0_1_n_n_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S4096x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S128x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v4) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S4096x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v5) S512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x1024 : Shape := ⟨2, ![8192, 1024]⟩
abbrev S1024x4096 : Shape := ⟨2, ![1024, 4096]⟩
abbrev S4096x4096 : Shape := ⟨2, ![4096, 4096]⟩
abbrev S4096x1024 : Shape := ⟨2, ![4096, 1024]⟩
abbrev S8192x4096 : Shape := ⟨2, ![8192, 4096]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096x4096, .f32⟩
  | .hbm, ⟨3, _⟩ => ⟨S4096x1024, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .i1⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .i1⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S_, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  dot_S8192x1024_S1024x4096_S8192x4096_1_0_0_1_n_n_wf : DotDims.WF S8192x1024 S1024x4096 S8192x4096 [1] [0] [0] [1] [] []
  dot_S8192x4096_S4096x4096_S8192x4096_1_0_0_1_n_n_wf : DotDims.WF S8192x4096 S4096x4096 S8192x4096 [1] [0] [0] [1] [] []
  dot_S8192x4096_S4096x1024_S8192x1024_1_0_0_1_n_n_wf : DotDims.WF S8192x4096 S4096x1024 S8192x1024 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf

class Facts : Prop extends Facts₀ where

variable [Facts]
-- ==== Proof.KernelRun.lean ====
/-
  The kernel program's run, with its result array named.

  @main is three format changes on the host followed by three calls. Every weakly fair execution terminates, and in the
  final memory every buffer that outlives a call holds what the last of the four stretches leaves in it: the contents
  are threaded through the stretches — after the host operations; after each call its own arrays at what its grid
  points wrote back and every other buffer as the call found it. In particular the result buffer holds what the third
  call's write-backs leave, and the four arguments are as launched.
-/
import proofs.«126441_j61607010894327_2_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library theorem's implicit arguments are found by unifying its conclusion with this one, which takes unfolding
-- plain definitions in a metavariable's type
set_option backward.isDefEq.respectTransparency.types false in
/-- Every weakly fair execution of @main terminates, and every buffer that outlives the calls ends at the contents the
    last stretch leaves (`W4`): the segments' chain from the launch memory, the last thread state read against the
    final memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c b hb => h c b hb)

/-- The same run with the result array and the arguments picked out: the result buffer ends at what the third call's
    write-backs leave of the contents that call found, and no stretch writes an argument. -/
theorem run_result : θ_run defs (onTc (τ := τ) (main (F := F))) ⟨m, fun _ => 0, ρ⟩ (fun r => ∀ c : Dev nD,
      r.2.mem ((c.tc : Thread nD τ).loc main_v5) = (dat2 (V3 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨(h c _ (mem_uc main_v5 (by decide))).trans (W4_arr m ρ c 2),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)
    (run_all m ρ)

end Cert.KernelIdeal.WholeRun

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibSoftplusMlp.lean ====
/-
  A perceptron with the cut-off softplus, on the extended reals, over any sizes: the activation, one layer read at an
  entry, and the three-layer network as a function of whole arrays.

  The activation is a softplus cut off at 20: for a pre-activation h it is h itself when h > 20, and
  log (exp (min h 20) + 1) otherwise. A layer takes an M × K matrix A and a K × N matrix B to the matrix whose
  entry (i, j) is the activation of Σ_k A (i, k) · B (k, j); the last layer has no activation. Nothing here needs
  the entries to be finite: only sums and products of extended reals are formed, never regrouped across a product.
-/
import Idealize.ShloMosaic.PureOps.Ideal.Laws
import Idealize.ShloMosaic.Lib.ValueIdx
import Idealize.ShloMosaic.Lib.Pipeline.Value
import proofs.«126441_j61607010894327_2_alg».proof.Proof.LibPlainMatmul

noncomputable section

open scoped BigOperators

namespace Cert.Mlp

open Idealize.ShloMosaic Idealize.ShloMosaic.ValueIdx

/-- The cut-off softplus of one pre-activation: `h` above the threshold 20, `log (exp (min h 20) + 1)` up to it.
    The two constants are kept as their f32 words (20.0 and 1.0): both programs carry the same words. -/
def act (h : EReal) : EReal :=
  Scalar.select (FloatOps.cmpf (F := Ideal) (φ := .f32) .ogt h (Ideal.ofBits .f32 0x41A00000#32)) h
    (Ideal.log (Ideal.exp (min h (Ideal.ofBits .f32 0x41A00000#32)) + Ideal.ofBits .f32 0x3F800000#32))

/-- Entry (i, j) of the product of an M × K and a K × N matrix of extended reals. -/
def prod {M K N : Nat} (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

/-- A layer with its activation: the activation of every entry of the product. -/
def layer {M K N : Nat} (A : (⟨2, ![M, K]⟩ : Shape).Idx → EReal) (B : (⟨2, ![K, N]⟩ : Shape).Idx → EReal) :
    (⟨2, ![M, N]⟩ : Shape).Idx → EReal :=
  fun i => act (prod A B i)

theorem prod_ix2 {M K N : Nat} (A : (⟨2, ![M, K]⟩ : Shape).Idx → EReal) (B : (⟨2, ![K, N]⟩ : Shape).Idx → EReal)
    (i : Fin M) (j : Fin N) : prod A B (ix2 i j) = ∑ k : Fin K, A (ix2 i k) * B (ix2 k j) := rfl

/-- The vector unit's form of the activation (compare, minimum, exp, add, log, select over a whole block, the
    constants splat) read at one element is the activation of that element. -/
theorem vector_act_apply (S : Shape) (h : FVec Ideal S .f32) (i : S.Idx) :
    select (cmpf .ogt h (broadcast S (Scalar.ofBits (F := Ideal) .f32 0x41A00000#32))) h
      (log (addf (exp (minimumf h (broadcast S (Scalar.ofBits (F := Ideal) .f32 0x41A00000#32))))
        (broadcast S (Scalar.ofBits (F := Ideal) .f32 0x3F800000#32)))) i = act (h i) := rfl

/-- A block of a layer as the matrix unit and the vector unit compute it — the product into a zero accumulator, then
    the activation — read at entry (i, j). -/
theorem matmul_act_apply (M K N : Nat) {φ₁ φ₂ : FTy} (lhs : FVec Ideal ⟨2, ![M, K]⟩ φ₁) (rhs : FVec Ideal ⟨2, ![K, N]⟩ φ₂)
    (i : Fin M) (j : Fin N) :
    act (FloatOps.matmul (DotDims.plain M K N) none lhs rhs (constant ⟨2, ![M, N]⟩ .f32 0x00000000#32) (ix2 i j))
      = layer (M := M) (K := K) (N := N) lhs rhs (ix2 i j) :=
  congrArg act (Cert.PlainMatmul.matmul_zero_apply M K N none lhs rhs i j)

/-- The whole network: two layers with the activation, then a product without it. -/
def net {M K N₁ N₂ N₃ : Nat} (x : (⟨2, ![M, K]⟩ : Shape).Idx → EReal) (w1 : (⟨2, ![K, N₁]⟩ : Shape).Idx → EReal)
    (w2 : (⟨2, ![N₁, N₂]⟩ : Shape).Idx → EReal) (w3 : (⟨2, ![N₂, N₃]⟩ : Shape).Idx → EReal) :
    (⟨2, ![M, N₃]⟩ : Shape).Idx → EReal :=
  prod (layer (layer x w1) w2) w3

end Cert.Mlp

end
-- ==== Proof.Layer1.lean ====
/-
  The first call: h1 = act (x · w1), 512 rows per grid point.

  Each of the 16 grid points loads rows 512·t … 512·t + 511 of x and the whole of w1, multiplies them into a zero
  accumulator, applies the activation entry by entry and stores the 512 × 4096 block. Read at an entry this is the
  activation of a plain sum over the 1024 contracted positions; the 16 blocks tile the 8192 × 4096 result, so the
  array the call leaves is `Mlp.layer` of the two arrays it found, whatever they hold.
-/
import proofs.«126441_j61607010894327_2_alg».proof.Proof.Gen.KernelIdeal.Frame
import proofs.«126441_j61607010894327_2_alg».proof.Proof.LibSoftplusMlp
import Idealize.ShloMosaic.Lib.Pipeline.Value

noncomputable section

open scoped BigOperators

namespace Cert.KernelIdeal.Layer1

open Cert.KernelIdeal Cert.KernelIdeal.Gen Idealize.ShloMosaic Idealize.ShloMosaic.TcCoe Idealize.SL.Sem
open Idealize.ShloMosaic.ValueIdx
open Idealize.ShloMosaic.Pipeline (Dat)

-- the buffer contents when the call is entered: everything below holds for any of them
variable (V : (c : Dev nD) → (b : Ref sig .tc) → Buf (Elt Ideal) ((c : Thread nD τ).loc b))

theorem hz : (![0, 0] : Fin 2 → Nat) = fun _ => 0 := funext fun a => by fin_cases a <;> rfl

/-- What a grid point stores, read at entry (p, q) of its block: the activation of Σ_k x0 (p, k) · x1 (k, q) over the rows
    and the matrix the point loaded (a change of float format does nothing to an extended real). -/
theorem pay_apply (x0 : Vec Ideal S512x1024 .f32) (x1 : Vec Ideal S1024x4096 .bf16) (p : Fin 512) (q : Fin 4096) :
    k0_pay1 (F := Ideal) x0 x1 (ix2 p q) = Cert.Mlp.layer (M := 512) (K := 1024) (N := 4096) x0 x1 (ix2 p q) := by
  unfold k0_pay1
  refine (Cert.Mlp.matmul_act_apply 512 1024 4096 _ _ p q).trans ?_
  rw [shapeCast_self]; rfl

/-- The same entry from the WHOLE matrices: if row `p` of the loaded rows is row `r` of the whole left matrix and the
    loaded right matrix is the whole right matrix, entry (p, q) of the stored block is entry (r, q) of the whole result. -/
theorem block_apply (x0 : Vec Ideal S512x1024 .f32) (x1 : Vec Ideal S1024x4096 .bf16)
    (A : S8192x1024.Idx → EReal) (B : S1024x4096.Idx → EReal) (r : Fin 8192) (p : Fin 512) (q : Fin 4096)
    (h0 : ∀ k : Fin 1024, x0 (ix2 p k) = A (ix2 r k)) (h1 : ∀ k : Fin 1024, x1 (ix2 k q) = B (ix2 k q)) :
    k0_pay1 (F := Ideal) x0 x1 (ix2 p q) = Cert.Mlp.layer (M := 8192) (K := 1024) (N := 4096) A B (ix2 r q) := by
  rw [pay_apply]
  refine congrArg Cert.Mlp.act (Finset.sum_congr rfl fun k _ => ?_)
  show x0 (ix2 p k) * x1 (ix2 k q) = A (ix2 r k) * B (ix2 k q)
  rw [h0 k, h1 k]

/-- The index maps over the grid: point `t` takes row block `t` of the left matrix, the whole right matrix, and
    gives row block `t` of the result. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is rows 512·t … 512·t + 511 of the whole result of the two arrays the call finds. -/
theorem flushed_eq (c : Dev nD) (t : Fin cfg0.N) :
    (dat0 V c).flushed 2 t = ((cfg0.win 2).blk t).view.read (Elt Ideal)
      (Cert.Mlp.layer (M := 8192) (K := 1024) (N := 4096) (V c main_arg0) (V c main_v0)) := by
  show (cfg0.win 2).cut (grid0.coords t) ((dat0 V c).after 2 t) = _
  rw [after0_2]
  unfold out0_2
  rw [View.canon_unit_zero hz]
  simp only [View.ld_unit_zero (S := S512x1024) hz, View.ld_unit_zero (S := S1024x4096) hz]
  obtain ⟨e00, e01, e10, e11, e20, e21⟩ := idx_facts t
  have ht : t.val < 16 := lt_of_lt_of_eq t.isLt N_0
  funext j
  have hj0 : (j 0).val < 512 := (j 0).isLt
  have hj1 : (j 1).val < 4096 := (j 1).isLt
  show k0_pay1 (iblk0 V c 0 t) (iblk0 V c 1 t) ((win0 2).xinj (grid0.coords t) j)
    = Cert.Mlp.layer (M := 8192) (K := 1024) (N := 4096) (V c main_arg0) (V c main_v0) (((cfg0.win 2).blk t).view.emb j)
  have hy : (win0 2).xinj (grid0.coords t) j = ix2 (⟨(j 0).val, hj0⟩ : Fin 512) (⟨(j 1).val, hj1⟩ : Fin 4096) :=
    funext fun a => by match a with | ⟨0, _⟩ => rfl | ⟨1, _⟩ => rfl
  have he : ((cfg0.win 2).blk t).view.emb j
      = ix2 (⟨512 * t.val + (j 0).val, by omega⟩ : Fin 8192) (⟨(j 1).val, hj1⟩ : Fin 4096) :=
    funext fun a => Fin.ext (by
      match a with
      | ⟨0, _⟩ => show win0_2.index t (0 : Fin 2) * 512 + 1 * (j 0).val = 512 * t.val + (j 0).val; omega
      | ⟨1, _⟩ => show win0_2.index t (1 : Fin 2) * 4096 + 1 * (j 1).val = (j 1).val; omega)
  rw [hy, he]
  refine block_apply (iblk0 V c 0 t) (iblk0 V c 1 t) (V c main_arg0) (V c main_v0)
    (⟨512 * t.val + (j 0).val, by omega⟩ : Fin 8192) (⟨(j 0).val, hj0⟩ : Fin 512) (⟨(j 1).val, hj1⟩ : Fin 4096) (fun k => ?_) (fun k => ?_)
  · show V c main_arg0 (((cfg0.win 0).blk t).view.emb (ix2 (⟨(j 0).val, hj0⟩ : Fin 512) k))
      = V c main_arg0 (ix2 (⟨512 * t.val + (j 0).val, by omega⟩ : Fin 8192) k)
    refine congrArg (V c main_arg0) (funext fun a => Fin.ext ?_)
    match a with
    | ⟨0, _⟩ => show win0_0.index t (0 : Fin 2) * 512 + 1 * (j 0).val = 512 * t.val + (j 0).val; omega
    | ⟨1, _⟩ => show win0_0.index t (1 : Fin 2) * 1024 + 1 * k.val = k.val; omega
  · show V c main_v0 (((cfg0.win 1).blk t).view.emb (ix2 k (⟨(j 1).val, hj1⟩ : Fin 4096)))
      = V c main_v0 (ix2 k (⟨(j 1).val, hj1⟩ : Fin 4096))
    refine congrArg (V c main_v0) (funext fun a => Fin.ext ?_)
    match a with
    | ⟨0, _⟩ => show win0_1.index t (0 : Fin 2) * 1024 + 1 * k.val = k.val; omega
    | ⟨1, _⟩ => show win0_1.index t (1 : Fin 2) * 4096 + 1 * (j 1).val = (j 1).val; omega

/-- An entry of the result array lies in point `t`'s block iff each coordinate is in the block's range on its axis. -/
theorem mem_blk (t : Fin cfg0.N) (i : S8192x4096.Idx) :
    i ∈ ((cfg0.win 2).blk t).view.set ↔ ∀ a : Fin 2, win0_2.index t a * S512x4096.size a ≤ (i a).val
      ∧ (i a).val < win0_2.index t a * S512x4096.size a + S512x4096.size a := by
  show i ∈ ((View.whole main_v3).slice (win0_2.rect t)).set ↔ _
  rw [View.set_slice_whole, Rect.mem_set_unit]
  exact Iff.rfl

/-- The row blocks tile the result array (row `i` is in block `i / 512`), so after the call the array holds the whole
    result of the two arrays the call found. -/
theorem final (c : Dev nD) : (dat0 V c).arrAt 2 cfg0.N = Cert.Mlp.layer (M := 8192) (K := 1024) (N := 4096) (V c main_arg0) (V c main_v0) :=
  (dat0 V c).arrAt_eq_of_cover 2 (Cert.Mlp.layer (M := 8192) (K := 1024) (N := 4096) (V c main_arg0) (V c main_v0)) (fun t _ => flushed_eq V c t) fun i => by
    have hi0 : (i 0).val < 8192 := (i 0).isLt
    have hi1 : (i 1).val < 4096 := (i 1).isLt
    have htN : (i 0).val / 512 < cfg0.N := lt_of_lt_of_eq (by omega : (i 0).val / 512 < 16) N_0.symm
    obtain ⟨-, -, -, -, e20, e21⟩ := idx_facts ⟨(i 0).val / 512, htN⟩
    have e20' : win0_2.index ⟨(i 0).val / 512, htN⟩ (0 : Fin 2) = (i 0).val / 512 := e20
    refine ⟨⟨(i 0).val / 512, htN⟩, flush0_2 _, ?_⟩
    rw [mem_blk]
    intro a
    match a with
    | ⟨0, _⟩ =>
      show win0_2.index ⟨(i 0).val / 512, htN⟩ (0 : Fin 2) * 512 ≤ (i 0).val
        ∧ (i 0).val < win0_2.index ⟨(i 0).val / 512, htN⟩ (0 : Fin 2) * 512 + 512
      rw [e20']; omega
    | ⟨1, _⟩ =>
      show win0_2.index ⟨(i 0).val / 512, htN⟩ (1 : Fin 2) * 4096 ≤ (i 1).val
        ∧ (i 1).val < win0_2.index ⟨(i 0).val / 512, htN⟩ (1 : Fin 2) * 4096 + 4096
      rw [e21]; omega

end Cert.KernelIdeal.Layer1

end
-- ==== Proof.Layer2.lean ====
/-
  The second call: h2 = act (h1 · w2), 128 rows per grid point.

  Each of the 64 grid points loads rows 128·t … 128·t + 127 of h1 and the whole of w2, multiplies them into a zero
  accumulator, applies the activation entry by entry and stores the 128 × 4096 block. Read at an entry this is the
  activation of a plain sum over the 4096 contracted positions; the 64 blocks tile the 8192 × 4096 result, so the
  array the call leaves is `Mlp.layer` of the two arrays it found, whatever they hold.
-/
import proofs.«126441_j61607010894327_2_alg».proof.Proof.Gen.KernelIdeal.Frame
import proofs.«126441_j61607010894327_2_alg».proof.Proof.LibSoftplusMlp
import Idealize.ShloMosaic.Lib.Pipeline.Value

noncomputable section

open scoped BigOperators

namespace Cert.KernelIdeal.Layer2

open Cert.KernelIdeal Cert.KernelIdeal.Gen Idealize.ShloMosaic Idealize.ShloMosaic.TcCoe Idealize.SL.Sem
open Idealize.ShloMosaic.ValueIdx
open Idealize.ShloMosaic.Pipeline (Dat)

-- the buffer contents when the call is entered: everything below holds for any of them
variable (V : (c : Dev nD) → (b : Ref sig .tc) → Buf (Elt Ideal) ((c : Thread nD τ).loc b))

theorem hz : (![0, 0] : Fin 2 → Nat) = fun _ => 0 := funext fun a => by fin_cases a <;> rfl

/-- What a grid point stores, read at entry (p, q) of its block: the activation of Σ_k x0 (p, k) · x1 (k, q) over the rows
    and the matrix the point loaded (a change of float format does nothing to an extended real). -/
theorem pay_apply (x0 : Vec Ideal S128x4096 .bf16) (x1 : Vec Ideal S4096x4096 .bf16) (p : Fin 128) (q : Fin 4096) :
    k1_pay1 (F := Ideal) x0 x1 (ix2 p q) = Cert.Mlp.layer (M := 128) (K := 4096) (N := 4096) x0 x1 (ix2 p q) := by
  unfold k1_pay1
  refine (Cert.Mlp.matmul_act_apply 128 4096 4096 _ _ p q).trans ?_
  rw [shapeCast_self, shapeCast_self]

/-- The same entry from the WHOLE matrices: if row `p` of the loaded rows is row `r` of the whole left matrix and the
    loaded right matrix is the whole right matrix, entry (p, q) of the stored block is entry (r, q) of the whole result. -/
theorem block_apply (x0 : Vec Ideal S128x4096 .bf16) (x1 : Vec Ideal S4096x4096 .bf16)
    (A : S8192x4096.Idx → EReal) (B : S4096x4096.Idx → EReal) (r : Fin 8192) (p : Fin 128) (q : Fin 4096)
    (h0 : ∀ k : Fin 4096, x0 (ix2 p k) = A (ix2 r k)) (h1 : ∀ k : Fin 4096, x1 (ix2 k q) = B (ix2 k q)) :
    k1_pay1 (F := Ideal) x0 x1 (ix2 p q) = Cert.Mlp.layer (M := 8192) (K := 4096) (N := 4096) A B (ix2 r q) := by
  rw [pay_apply]
  refine congrArg Cert.Mlp.act (Finset.sum_congr rfl fun k _ => ?_)
  show x0 (ix2 p k) * x1 (ix2 k q) = A (ix2 r k) * B (ix2 k q)
  rw [h0 k, h1 k]

/-- The index maps over the grid: point `t` takes row block `t` of the left matrix, the whole right matrix, and
    gives row block `t` of the result. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is rows 128·t … 128·t + 127 of the whole result of the two arrays the call finds. -/
theorem flushed_eq (c : Dev nD) (t : Fin cfg1.N) :
    (dat1 V c).flushed 2 t = ((cfg1.win 2).blk t).view.read (Elt Ideal)
      (Cert.Mlp.layer (M := 8192) (K := 4096) (N := 4096) (V c main_v3) (V c main_v1)) := by
  show (cfg1.win 2).cut (grid1.coords t) ((dat1 V c).after 2 t) = _
  rw [after1_2]
  unfold out1_2
  rw [View.canon_unit_zero hz]
  simp only [View.ld_unit_zero (S := S128x4096) hz, View.ld_unit_zero (S := S4096x4096) hz]
  obtain ⟨e00, e01, e10, e11, e20, e21⟩ := idx_facts t
  have ht : t.val < 64 := lt_of_lt_of_eq t.isLt N_1
  funext j
  have hj0 : (j 0).val < 128 := (j 0).isLt
  have hj1 : (j 1).val < 4096 := (j 1).isLt
  show k1_pay1 (iblk1 V c 0 t) (iblk1 V c 1 t) ((win1 2).xinj (grid1.coords t) j)
    = Cert.Mlp.layer (M := 8192) (K := 4096) (N := 4096) (V c main_v3) (V c main_v1) (((cfg1.win 2).blk t).view.emb j)
  have hy : (win1 2).xinj (grid1.coords t) j = ix2 (⟨(j 0).val, hj0⟩ : Fin 128) (⟨(j 1).val, hj1⟩ : Fin 4096) :=
    funext fun a => by match a with | ⟨0, _⟩ => rfl | ⟨1, _⟩ => rfl
  have he : ((cfg1.win 2).blk t).view.emb j
      = ix2 (⟨128 * t.val + (j 0).val, by omega⟩ : Fin 8192) (⟨(j 1).val, hj1⟩ : Fin 4096) :=
    funext fun a => Fin.ext (by
      match a with
      | ⟨0, _⟩ => show win1_2.index t (0 : Fin 2) * 128 + 1 * (j 0).val = 128 * t.val + (j 0).val; omega
      | ⟨1, _⟩ => show win1_2.index t (1 : Fin 2) * 4096 + 1 * (j 1).val = (j 1).val; omega)
  rw [hy, he]
  refine block_apply (iblk1 V c 0 t) (iblk1 V c 1 t) (V c main_v3) (V c main_v1)
    (⟨128 * t.val + (j 0).val, by omega⟩ : Fin 8192) (⟨(j 0).val, hj0⟩ : Fin 128) (⟨(j 1).val, hj1⟩ : Fin 4096) (fun k => ?_) (fun k => ?_)
  · show V c main_v3 (((cfg1.win 0).blk t).view.emb (ix2 (⟨(j 0).val, hj0⟩ : Fin 128) k))
      = V c main_v3 (ix2 (⟨128 * t.val + (j 0).val, by omega⟩ : Fin 8192) k)
    refine congrArg (V c main_v3) (funext fun a => Fin.ext ?_)
    match a with
    | ⟨0, _⟩ => show win1_0.index t (0 : Fin 2) * 128 + 1 * (j 0).val = 128 * t.val + (j 0).val; omega
    | ⟨1, _⟩ => show win1_0.index t (1 : Fin 2) * 4096 + 1 * k.val = k.val; omega
  · show V c main_v1 (((cfg1.win 1).blk t).view.emb (ix2 k (⟨(j 1).val, hj1⟩ : Fin 4096)))
      = V c main_v1 (ix2 k (⟨(j 1).val, hj1⟩ : Fin 4096))
    refine congrArg (V c main_v1) (funext fun a => Fin.ext ?_)
    match a with
    | ⟨0, _⟩ => show win1_1.index t (0 : Fin 2) * 4096 + 1 * k.val = k.val; omega
    | ⟨1, _⟩ => show win1_1.index t (1 : Fin 2) * 4096 + 1 * (j 1).val = (j 1).val; omega

/-- An entry of the result array lies in point `t`'s block iff each coordinate is in the block's range on its axis. -/
theorem mem_blk (t : Fin cfg1.N) (i : S8192x4096.Idx) :
    i ∈ ((cfg1.win 2).blk t).view.set ↔ ∀ a : Fin 2, win1_2.index t a * S128x4096.size a ≤ (i a).val
      ∧ (i a).val < win1_2.index t a * S128x4096.size a + S128x4096.size a := by
  show i ∈ ((View.whole main_v4).slice (win1_2.rect t)).set ↔ _
  rw [View.set_slice_whole, Rect.mem_set_unit]
  exact Iff.rfl

/-- The row blocks tile the result array (row `i` is in block `i / 128`), so after the call the array holds the whole
    result of the two arrays the call found. -/
theorem final (c : Dev nD) : (dat1 V c).arrAt 2 cfg1.N = Cert.Mlp.layer (M := 8192) (K := 4096) (N := 4096) (V c main_v3) (V c main_v1) :=
  (dat1 V c).arrAt_eq_of_cover 2 (Cert.Mlp.layer (M := 8192) (K := 4096) (N := 4096) (V c main_v3) (V c main_v1)) (fun t _ => flushed_eq V c t) fun i => by
    have hi0 : (i 0).val < 8192 := (i 0).isLt
    have hi1 : (i 1).val < 4096 := (i 1).isLt
    have htN : (i 0).val / 128 < cfg1.N := lt_of_lt_of_eq (by omega : (i 0).val / 128 < 64) N_1.symm
    obtain ⟨-, -, -, -, e20, e21⟩ := idx_facts ⟨(i 0).val / 128, htN⟩
    have e20' : win1_2.index ⟨(i 0).val / 128, htN⟩ (0 : Fin 2) = (i 0).val / 128 := e20
    refine ⟨⟨(i 0).val / 128, htN⟩, flush1_2 _, ?_⟩
    rw [mem_blk]
    intro a
    match a with
    | ⟨0, _⟩ =>
      show win1_2.index ⟨(i 0).val / 128, htN⟩ (0 : Fin 2) * 128 ≤ (i 0).val
        ∧ (i 0).val < win1_2.index ⟨(i 0).val / 128, htN⟩ (0 : Fin 2) * 128 + 128
      rw [e20']; omega
    | ⟨1, _⟩ =>
      show win1_2.index ⟨(i 0).val / 128, htN⟩ (1 : Fin 2) * 4096 ≤ (i 1).val
        ∧ (i 1).val < win1_2.index ⟨(i 0).val / 128, htN⟩ (1 : Fin 2) * 4096 + 4096
      rw [e21]; omega

end Cert.KernelIdeal.Layer2

end
-- ==== Proof.Layer3.lean ====
/-
  The third call: out = h2 · w3, 512 rows per grid point, no activation.

  Each of the 16 grid points loads rows 512·t … 512·t + 511 of h2 and the whole of w3, multiplies them into a zero
  accumulator and stores the 512 × 1024 block. Read at an entry this is a plain sum over the 4096 contracted
  positions; the 16 blocks tile the 8192 × 1024 result, so the array the call leaves is `Mlp.prod` of the two arrays it
  found, whatever they hold.
-/
import proofs.«126441_j61607010894327_2_alg».proof.Proof.Gen.KernelIdeal.Frame
import proofs.«126441_j61607010894327_2_alg».proof.Proof.LibSoftplusMlp
import Idealize.ShloMosaic.Lib.Pipeline.Value

noncomputable section

open scoped BigOperators

namespace Cert.KernelIdeal.Layer3

open Cert.KernelIdeal Cert.KernelIdeal.Gen Idealize.ShloMosaic Idealize.ShloMosaic.TcCoe Idealize.SL.Sem
open Idealize.ShloMosaic.ValueIdx
open Idealize.ShloMosaic.Pipeline (Dat)

-- the buffer contents when the call is entered: everything below holds for any of them
variable (V : (c : Dev nD) → (b : Ref sig .tc) → Buf (Elt Ideal) ((c : Thread nD τ).loc b))

theorem hz : (![0, 0] : Fin 2 → Nat) = fun _ => 0 := funext fun a => by fin_cases a <;> rfl

/-- What a grid point stores, read at entry (p, q) of its block: the plain sum Σ_k x0 (p, k) · x1 (k, q) over the rows
    and the matrix the point loaded (a change of float format does nothing to an extended real). -/
theorem pay_apply (x0 : Vec Ideal S512x4096 .bf16) (x1 : Vec Ideal S4096x1024 .bf16) (p : Fin 512) (q : Fin 1024) :
    k2_pay1 (F := Ideal) x0 x1 (ix2 p q) = Cert.Mlp.prod (M := 512) (K := 4096) (N := 1024) x0 x1 (ix2 p q) := by
  unfold k2_pay1
  refine (Cert.PlainMatmul.matmul_zero_apply 512 4096 1024 none _ _ p q).trans ?_
  rw [shapeCast_self, shapeCast_self]; rfl

/-- The same entry from the WHOLE matrices: if row `p` of the loaded rows is row `r` of the whole left matrix and the
    loaded right matrix is the whole right matrix, entry (p, q) of the stored block is entry (r, q) of the whole result. -/
theorem block_apply (x0 : Vec Ideal S512x4096 .bf16) (x1 : Vec Ideal S4096x1024 .bf16)
    (A : S8192x4096.Idx → EReal) (B : S4096x1024.Idx → EReal) (r : Fin 8192) (p : Fin 512) (q : Fin 1024)
    (h0 : ∀ k : Fin 4096, x0 (ix2 p k) = A (ix2 r k)) (h1 : ∀ k : Fin 4096, x1 (ix2 k q) = B (ix2 k q)) :
    k2_pay1 (F := Ideal) x0 x1 (ix2 p q) = Cert.Mlp.prod (M := 8192) (K := 4096) (N := 1024) A B (ix2 r q) := by
  rw [pay_apply]
  refine Finset.sum_congr rfl fun k _ => ?_
  show x0 (ix2 p k) * x1 (ix2 k q) = A (ix2 r k) * B (ix2 k q)
  rw [h0 k, h1 k]

/-- The index maps over the grid: point `t` takes row block `t` of the left matrix, the whole right matrix, and
    gives row block `t` of the result. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is rows 512·t … 512·t + 511 of the whole result of the two arrays the call finds. -/
theorem flushed_eq (c : Dev nD) (t : Fin cfg2.N) :
    (dat2 V c).flushed 2 t = ((cfg2.win 2).blk t).view.read (Elt Ideal)
      (Cert.Mlp.prod (M := 8192) (K := 4096) (N := 1024) (V c main_v4) (V c main_v2)) := by
  show (cfg2.win 2).cut (grid2.coords t) ((dat2 V c).after 2 t) = _
  rw [after2_2]
  unfold out2_2
  rw [View.canon_unit_zero hz]
  simp only [View.ld_unit_zero (S := S512x4096) hz, View.ld_unit_zero (S := S4096x1024) hz]
  obtain ⟨e00, e01, e10, e11, e20, e21⟩ := idx_facts t
  have ht : t.val < 16 := lt_of_lt_of_eq t.isLt N_2
  funext j
  have hj0 : (j 0).val < 512 := (j 0).isLt
  have hj1 : (j 1).val < 1024 := (j 1).isLt
  show k2_pay1 (iblk2 V c 0 t) (iblk2 V c 1 t) ((win2 2).xinj (grid2.coords t) j)
    = Cert.Mlp.prod (M := 8192) (K := 4096) (N := 1024) (V c main_v4) (V c main_v2) (((cfg2.win 2).blk t).view.emb j)
  have hy : (win2 2).xinj (grid2.coords t) j = ix2 (⟨(j 0).val, hj0⟩ : Fin 512) (⟨(j 1).val, hj1⟩ : Fin 1024) :=
    funext fun a => by match a with | ⟨0, _⟩ => rfl | ⟨1, _⟩ => rfl
  have he : ((cfg2.win 2).blk t).view.emb j
      = ix2 (⟨512 * t.val + (j 0).val, by omega⟩ : Fin 8192) (⟨(j 1).val, hj1⟩ : Fin 1024) :=
    funext fun a => Fin.ext (by
      match a with
      | ⟨0, _⟩ => show win2_2.index t (0 : Fin 2) * 512 + 1 * (j 0).val = 512 * t.val + (j 0).val; omega
      | ⟨1, _⟩ => show win2_2.index t (1 : Fin 2) * 1024 + 1 * (j 1).val = (j 1).val; omega)
  rw [hy, he]
  refine block_apply (iblk2 V c 0 t) (iblk2 V c 1 t) (V c main_v4) (V c main_v2)
    (⟨512 * t.val + (j 0).val, by omega⟩ : Fin 8192) (⟨(j 0).val, hj0⟩ : Fin 512) (⟨(j 1).val, hj1⟩ : Fin 1024) (fun k => ?_) (fun k => ?_)
  · show V c main_v4 (((cfg2.win 0).blk t).view.emb (ix2 (⟨(j 0).val, hj0⟩ : Fin 512) k))
      = V c main_v4 (ix2 (⟨512 * t.val + (j 0).val, by omega⟩ : Fin 8192) k)
    refine congrArg (V c main_v4) (funext fun a => Fin.ext ?_)
    match a with
    | ⟨0, _⟩ => show win2_0.index t (0 : Fin 2) * 512 + 1 * (j 0).val = 512 * t.val + (j 0).val; omega
    | ⟨1, _⟩ => show win2_0.index t (1 : Fin 2) * 4096 + 1 * k.val = k.val; omega
  · show V c main_v2 (((cfg2.win 1).blk t).view.emb (ix2 k (⟨(j 1).val, hj1⟩ : Fin 1024)))
      = V c main_v2 (ix2 k (⟨(j 1).val, hj1⟩ : Fin 1024))
    refine congrArg (V c main_v2) (funext fun a => Fin.ext ?_)
    match a with
    | ⟨0, _⟩ => show win2_1.index t (0 : Fin 2) * 4096 + 1 * k.val = k.val; omega
    | ⟨1, _⟩ => show win2_1.index t (1 : Fin 2) * 1024 + 1 * (j 1).val = (j 1).val; omega

/-- An entry of the result array lies in point `t`'s block iff each coordinate is in the block's range on its axis. -/
theorem mem_blk (t : Fin cfg2.N) (i : S8192x1024.Idx) :
    i ∈ ((cfg2.win 2).blk t).view.set ↔ ∀ a : Fin 2, win2_2.index t a * S512x1024.size a ≤ (i a).val
      ∧ (i a).val < win2_2.index t a * S512x1024.size a + S512x1024.size a := by
  show i ∈ ((View.whole main_v5).slice (win2_2.rect t)).set ↔ _
  rw [View.set_slice_whole, Rect.mem_set_unit]
  exact Iff.rfl

/-- The row blocks tile the result array (row `i` is in block `i / 512`), so after the call the array holds the whole
    result of the two arrays the call found. -/
theorem final (c : Dev nD) : (dat2 V c).arrAt 2 cfg2.N = Cert.Mlp.prod (M := 8192) (K := 4096) (N := 1024) (V c main_v4) (V c main_v2) :=
  (dat2 V c).arrAt_eq_of_cover 2 (Cert.Mlp.prod (M := 8192) (K := 4096) (N := 1024) (V c main_v4) (V c main_v2)) (fun t _ => flushed_eq V c t) fun i => by
    have hi0 : (i 0).val < 8192 := (i 0).isLt
    have hi1 : (i 1).val < 1024 := (i 1).isLt
    have htN : (i 0).val / 512 < cfg2.N := lt_of_lt_of_eq (by omega : (i 0).val / 512 < 16) N_2.symm
    obtain ⟨-, -, -, -, e20, e21⟩ := idx_facts ⟨(i 0).val / 512, htN⟩
    have e20' : win2_2.index ⟨(i 0).val / 512, htN⟩ (0 : Fin 2) = (i 0).val / 512 := e20
    refine ⟨⟨(i 0).val / 512, htN⟩, flush2_2 _, ?_⟩
    rw [mem_blk]
    intro a
    match a with
    | ⟨0, _⟩ =>
      show win2_2.index ⟨(i 0).val / 512, htN⟩ (0 : Fin 2) * 512 ≤ (i 0).val
        ∧ (i 0).val < win2_2.index ⟨(i 0).val / 512, htN⟩ (0 : Fin 2) * 512 + 512
      rw [e20']; omega
    | ⟨1, _⟩ =>
      show win2_2.index ⟨(i 0).val / 512, htN⟩ (1 : Fin 2) * 1024 ≤ (i 1).val
        ∧ (i 1).val < win2_2.index ⟨(i 0).val / 512, htN⟩ (1 : Fin 2) * 1024 + 1024
      rw [e21]; omega

end Cert.KernelIdeal.Layer3

end
-- ==== Proof.KernelNetwork.lean ====
/-
  The kernel program's result is the three-layer network of its four arguments.

  The host first changes the format of the three weight matrices, which does nothing to an extended real, so the
  first call finds x and w1 themselves. Each call leaves in its result array the layer of the two arrays it found
  (Layer1, Layer2, Layer3) and touches nothing else, so the second call finds h1 = act (x · w1) beside w2, the third
  finds h2 = act (h1 · w2) beside w3, and the result buffer ends at h2 · w3.
-/
import proofs.«126441_j61607010894327_2_alg».proof.Proof.KernelRun
import proofs.«126441_j61607010894327_2_alg».proof.Proof.Layer1
import proofs.«126441_j61607010894327_2_alg».proof.Proof.Layer2
import proofs.«126441_j61607010894327_2_alg».proof.Proof.Layer3
import Idealize.ShloMosaic.Lib.StableHlo.Run

noncomputable section

namespace Cert.KernelIdeal.Network

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ## What the first call finds: the arguments, the weights' format changed -/

theorem entry_x (c : Dev nD) : V1 m ρ c main_arg0 = m ((c.tc : Thread nD τ).loc main_arg0) := by
  show StableHlo.after hostOps0 (W0 m ρ c) (Proc.devRef .tc main_arg0) = _
  after_results <;> rfl

theorem entry_w1 (c : Dev nD) : V1 m ρ c main_v0 = m ((c.tc : Thread nD τ).loc main_arg1) := by
  show StableHlo.after hostOps0 (W0 m ρ c) (Proc.devRef .tc main_v0) = _
  after_results <;> rfl

theorem entry_w2 (c : Dev nD) : V1 m ρ c main_v1 = m ((c.tc : Thread nD τ).loc main_arg2) := by
  show StableHlo.after hostOps0 (W0 m ρ c) (Proc.devRef .tc main_v1) = _
  after_results <;> rfl

theorem entry_w3 (c : Dev nD) : V1 m ρ c main_v2 = m ((c.tc : Thread nD τ).loc main_arg3) := by
  show StableHlo.after hostOps0 (W0 m ρ c) (Proc.devRef .tc main_v2) = _
  after_results <;> rfl

/-! ## What the second call finds -/

theorem hidden1 (c : Dev nD) : V2 m ρ c main_v3
    = Cert.Mlp.layer (M := 8192) (K := 1024) (N := 4096) (m ((c.tc : Thread nD τ).loc main_arg0)) (m ((c.tc : Thread nD τ).loc main_arg1)) :=
  (W2_arr m ρ c 2).trans ((Layer1.final (V1 m ρ) c).trans (by rw [entry_x m ρ c, entry_w1 m ρ c]))

theorem second_w2 (c : Dev nD) : V2 m ρ c main_v1 = m ((c.tc : Thread nD τ).loc main_arg2) :=
  (W2_of_ne m ρ c main_v1 (by decide)).trans (entry_w2 m ρ c)

theorem second_w3 (c : Dev nD) : V2 m ρ c main_v2 = m ((c.tc : Thread nD τ).loc main_arg3) :=
  (W2_of_ne m ρ c main_v2 (by decide)).trans (entry_w3 m ρ c)

/-! ## What the third call finds -/

theorem hidden2 (c : Dev nD) : V3 m ρ c main_v4
    = Cert.Mlp.layer (M := 8192) (K := 4096) (N := 4096)
        (Cert.Mlp.layer (M := 8192) (K := 1024) (N := 4096) (m ((c.tc : Thread nD τ).loc main_arg0)) (m ((c.tc : Thread nD τ).loc main_arg1)))
        (m ((c.tc : Thread nD τ).loc main_arg2)) :=
  (W3_arr m ρ c 2).trans ((Layer2.final (V2 m ρ) c).trans (by rw [hidden1 m ρ c, second_w2 m ρ c]))

theorem third_w3 (c : Dev nD) : V3 m ρ c main_v2 = m ((c.tc : Thread nD τ).loc main_arg3) :=
  (W3_of_ne m ρ c main_v2 (by decide)).trans (second_w3 m ρ c)

/-! ## The result -/

/-- What the third call's write-backs leave in the result array is the network of the four arguments. -/
theorem result (c : Dev nD) : (dat2 (V3 m ρ) c).arrAt 2 cfg2.N
    = Cert.Mlp.net (M := 8192) (K := 1024) (N₁ := 4096) (N₂ := 4096) (N₃ := 1024) (m ((c.tc : Thread nD τ).loc main_arg0))
        (m ((c.tc : Thread nD τ).loc main_arg1)) (m ((c.tc : Thread nD τ).loc main_arg2)) (m ((c.tc : Thread nD τ).loc main_arg3)) :=
  (Layer3.final (V3 m ρ) c).trans (by rw [hidden2 m ρ c, third_w3 m ρ c]; rfl)

/-- The kernel program's run: the result buffer ends at the network of the arguments, the arguments unchanged. -/
theorem run : θ_run defs (onTc (τ := τ) (main (F := Ideal))) ⟨m, fun _ => 0, ρ⟩ (fun r => ∀ c : Dev nD,
      r.2.mem ((c.tc : Thread nD τ).loc main_v5)
        = Cert.Mlp.net (M := 8192) (K := 1024) (N₁ := 4096) (N₂ := 4096) (N₃ := 1024) (m ((c.tc : Thread nD τ).loc main_arg0))
            (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result m ρ c), (h c).2⟩)
    (Cert.KernelIdeal.WholeRun.run_result (F := Ideal) m ρ)

end Cert.KernelIdeal.Network

end
-- ==== Proof.RefNetwork.lean ====
/-
  The reference, read entry by entry: its result is the three-layer network of its four arguments.

  The reference multiplies x by w1, applies the cut-off softplus entry by entry, multiplies by w2, applies it again,
  and multiplies by w3. Each product read at an entry is the plain sum over the contracted axis; the comparison, the
  minimum, the exponential, the sum with 1, the logarithm and the selection each act on one entry; the two constants
  are scalars broadcast to every entry. So the first two stages are `Mlp.layer` and the last is `Mlp.prod`.
-/
import proofs.«126441_j61607010894327_2_alg».proof.Proof.Gen.ReferenceIdeal.Read
import proofs.«126441_j61607010894327_2_alg».proof.Proof.LibSoftplusMlp

noncomputable section

open scoped BigOperators

namespace Cert.ReferenceIdeal.Network

open Cert.ReferenceIdeal Cert.ReferenceIdeal.Read Idealize.ShloMosaic Idealize.ShloMosaic.ValueIdx

/-- The first hidden layer: the activation of x · w1. -/
theorem hidden1 (x : S8192x1024.Idx → EReal) (w1 : S1024x4096.Idx → EReal) :
    val_main_v9 (F := Ideal) x w1 = Cert.Mlp.layer (M := 8192) (K := 1024) (N := 4096) x w1 := by
  funext i
  have hl : ∀ k : Fin 1024, lidx_main_v0 i k = ix2 (i 0) k :=
    fun k => funext fun a => by match a with | ⟨0, _⟩ => rfl | ⟨1, _⟩ => rfl
  have hr : ∀ k : Fin 1024, ridx_main_v0 i k = ix2 k (i 1) :=
    fun k => funext fun a => by match a with | ⟨0, _⟩ => rfl | ⟨1, _⟩ => rfl
  rw [val_main_v9_apply, val_main_v2_apply, val_main_v8_apply, val_main_v7_apply, val_main_v5_apply, val_main_v4_apply,
    val_main_v1_apply, val_main_v3_apply, val_main_v6_apply, val_main_v0_apply]
  simp only [hl, hr]
  rfl

/-- The second hidden layer: the activation of h1 · w2. -/
theorem hidden2 (x : S8192x1024.Idx → EReal) (w1 : S1024x4096.Idx → EReal) (w2 : S4096x4096.Idx → EReal) :
    val_main_v19 (F := Ideal) x w1 w2
      = Cert.Mlp.layer (M := 8192) (K := 4096) (N := 4096) (Cert.Mlp.layer (M := 8192) (K := 1024) (N := 4096) x w1) w2 := by
  funext i
  have hl : ∀ k : Fin 4096, lidx_main_v10 i k = ix2 (i 0) k :=
    fun k => funext fun a => by match a with | ⟨0, _⟩ => rfl | ⟨1, _⟩ => rfl
  have hr : ∀ k : Fin 4096, ridx_main_v10 i k = ix2 k (i 1) :=
    fun k => funext fun a => by match a with | ⟨0, _⟩ => rfl | ⟨1, _⟩ => rfl
  rw [val_main_v19_apply, val_main_v12_apply, val_main_v18_apply, val_main_v17_apply, val_main_v15_apply, val_main_v14_apply,
    val_main_v11_apply, val_main_v13_apply, val_main_v16_apply, val_main_v10_apply]
  simp only [hl, hr, hidden1]
  rfl

/-- The result: h2 · w3, no activation. -/
theorem result (x : S8192x1024.Idx → EReal) (w1 : S1024x4096.Idx → EReal) (w2 : S4096x4096.Idx → EReal)
    (w3 : S4096x1024.Idx → EReal) :
    val_main_v20 (F := Ideal) x w1 w2 w3
      = Cert.Mlp.prod (M := 8192) (K := 4096) (N := 1024)
          (Cert.Mlp.layer (M := 8192) (K := 4096) (N := 4096) (Cert.Mlp.layer (M := 8192) (K := 1024) (N := 4096) x w1) w2) w3 := by
  funext i
  have hl : ∀ k : Fin 4096, lidx_main_v20 i k = ix2 (i 0) k :=
    fun k => funext fun a => by match a with | ⟨0, _⟩ => rfl | ⟨1, _⟩ => rfl
  have hr : ∀ k : Fin 4096, ridx_main_v20 i k = ix2 k (i 1) :=
    fun k => funext fun a => by match a with | ⟨0, _⟩ => rfl | ⟨1, _⟩ => rfl
  rw [val_main_v20_apply]
  simp only [hl, hr, hidden2]
  rfl

end Cert.ReferenceIdeal.Network

end
-- ==== Proof.lean ====
/-
  A fused three-layer perceptron against its plain reference, on the extended reals.

  Both programs compute, for x (8192 × 1024), w1 (1024 × 4096), w2 (4096 × 4096), w3 (4096 × 1024),

      out = act (act (x · w1) · w2) · w3,    act h = h if h > 20, else log (exp (min h 20) + 1),

  entry by entry. The kernel does it in three calls, each tiling the rows of its left operand over a grid (512, 128 and
  512 rows per point) with its weight matrix resident, after a change of the weights' float format that is the
  identity on extended reals; the reference does it with three whole matrix products. A product read at an entry is the
  same plain sum Σ_k a (i, k) · b (k, j) on both sides — tiling the rows does not touch that sum, so no regrouping
  of sums of extended reals and no finiteness of the inputs is needed — and the activation acts on one entry at a time
  with the same two constants (20 and 1) on both sides.

  LibSoftplusMlp the activation, a layer and the network as functions of whole arrays
  Layer1..3      each call leaves the layer of the two arrays it finds (block by block, the blocks tile the result)
  KernelRun      the kernel program's run with its result array named
  KernelNetwork  the three calls chained: the kernel's result is the network of the arguments
  RefNetwork     the reference's result is the network of the arguments
-/
import proofs.«126441_j61607010894327_2_alg».proof.Defs
import proofs.«126441_j61607010894327_2_alg».proof.Proof.Gen.Kernel
import proofs.«126441_j61607010894327_2_alg».proof.Proof.Gen.Kernel.Skeleton
import proofs.«126441_j61607010894327_2_alg».proof.Proof.Gen.Kernel.Launch
import proofs.«126441_j61607010894327_2_alg».proof.Proof.Gen.Kernel.Points
import proofs.«126441_j61607010894327_2_alg».proof.Proof.Gen.Kernel.Frame
import proofs.«126441_j61607010894327_2_alg».proof.Proof.Gen.KernelIdeal
import proofs.«126441_j61607010894327_2_alg».proof.Proof.Gen.KernelIdeal.Skeleton
import proofs.«126441_j61607010894327_2_alg».proof.Proof.Gen.KernelIdeal.Launch
import proofs.«126441_j61607010894327_2_alg».proof.Proof.Gen.KernelIdeal.Points
import proofs.«126441_j61607010894327_2_alg».proof.Proof.Gen.KernelIdeal.Frame
import proofs.«126441_j61607010894327_2_alg».proof.Proof.Gen.ReferenceIdeal
import proofs.«126441_j61607010894327_2_alg».proof.Proof.Gen.ReferenceIdeal.Run
import proofs.«126441_j61607010894327_2_alg».proof.Proof.Gen.ReferenceIdeal.Read
import proofs.«126441_j61607010894327_2_alg».proof.Proof.Gen.Pre_finite_inputs
import proofs.«126441_j61607010894327_2_alg».proof.Proof.KernelNetwork
import proofs.«126441_j61607010894327_2_alg».proof.Proof.RefNetwork
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference has no call: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel was rewritten for the reading on the extended reals. -/
theorem preserves : Cert.preserves_Kernel_KernelIdeal := trivial

/-- From memories agreeing on the arguments both programs end with the network of the arguments in their result
    arrays: the kernel by its three calls chained, the reference by its three products. -/
theorem algebraic : Cert.algebraic_KernelIdeal_ReferenceIdeal := by
  intro m ρ m' ρ' _ hagree
  refine ⟨fun c => Cert.Mlp.net (M := 8192) (K := 1024) (N₁ := 4096) (N₂ := 4096) (N₃ := 1024)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Network.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.Network.result,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
